-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg9 : FVec F S128x128 .f32) (main_arg10 : FVec F S128x128 .f32) (main_arg11 : FVec F S128 .f32) (main_arg12 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x256 .f32) (main_arg1 : FVec F S100000x128 .f32) (main_arg2 : FVec F S100000x128 .f32) (main_arg3 : IVec S2x800000 32) (main_arg4 : IVec S2x800000 32) (main_arg5 : FVec F S256x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_v13 main_v16
-- ==== Kernel.lean ====
abbrev S100000x256 : Shape := ⟨2, ![100000, 256]⟩
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S2000x256 : Shape := ⟨2, ![2000, 256]⟩
abbrev S2000x128 : Shape := ⟨2, ![2000, 128]⟩
abbrev S2000x1 : Shape := ⟨2, ![2000, 1]⟩

abbrev nBuf : Space → Nat
  | .hbm => 65
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S100000x128, .f32⟩
  | .hbm, ⟨2, _⟩ => ⟨S100000x128, .f32⟩
  | .hbm, ⟨3, _⟩ => ⟨S2x800000, .i32⟩
  | .hbm, ⟨4, _⟩ => ⟨S2x800000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S100000x128, .f32⟩
  | .hbm, ⟨28, _⟩ => ⟨S800000x1, .i32⟩
  | .hbm, ⟨29, _⟩ => ⟨S100000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S100000, .f32⟩
  | .hbm, ⟨34, _⟩ => ⟨S800000x1, .i32⟩
  | .hbm, ⟨35, _⟩ => ⟨S100000, .f32⟩
  | .hbm, ⟨36, _⟩ => ⟨S100000x1, .f32⟩
  | .hbm, ⟨37, _⟩ => ⟨S1x800000, .i32⟩
  | .hbm, ⟨38, _⟩ => ⟨S800000, .i32⟩
  | .hbm, ⟨39, _⟩ => ⟨S1x800000, .i32⟩
  | .hbm, ⟨40, _⟩ => ⟨S800000, .i32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S100000x128, .f32⟩
  | .hbm, ⟨52, _⟩ => ⟨S800000x1, .i32⟩
  | .hbm, ⟨53, _⟩ => ⟨S100000x128, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S100000, .f32⟩
  | .hbm, ⟨58, _⟩ => ⟨S800000x1, .i32⟩
  | .hbm, ⟨59, _⟩ => ⟨S100000, .f32⟩
  | .hbm, ⟨60, _⟩ => ⟨S100000x1, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S256x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S100000x128.size a
  hwx0_13 : ∀ i : grid0.Coords, EltTy.bits .f32 = 32 ∨ (Rect.block (s := S100000x128) S2000x128.size (cc0_transform_13 i) (hinb0_13 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v41) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x128 : Shape := ⟨2, ![100000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x128, .f32⟩
  | .hbm, ⟨2, _⟩ => ⟨S100000x128, .f32⟩
  | .hbm, ⟨3, _⟩ => ⟨S2x800000, .i32⟩
  | .hbm, ⟨4, _⟩ => ⟨S2x800000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S100000x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S100000x128, .f32⟩
  | .hbm, ⟨32, _⟩ => ⟨S800000x1, .i32⟩
  | .hbm, ⟨33, _⟩ => ⟨S100000x128, .f32⟩
  | .hbm, ⟨34, _⟩ => ⟨S_, .f32⟩
  | .hbm, ⟨35, _⟩ => ⟨S800000x1, .f32⟩
  | .hbm, ⟨36, _⟩ => ⟨S_, .f32⟩
  | .hbm, ⟨37, _⟩ => ⟨S100000x1, .f32⟩
  | .hbm, ⟨38, _⟩ => ⟨S800000x1, .i32⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x800000, .i32⟩
  | .hbm, ⟨52, _⟩ => ⟨S800000, .i32⟩
  | .hbm, ⟨53, _⟩ => ⟨S1x800000, .i32⟩
  | .hbm, ⟨54, _⟩ => ⟨S800000, .i32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S100000x128, .f32⟩
  | .hbm, ⟨66, _⟩ => ⟨S800000x1, .i32⟩
  | .hbm, ⟨67, _⟩ => ⟨S100000x128, .f32⟩
  | .hbm, ⟨68, _⟩ => ⟨S_, .f32⟩
  | .hbm, ⟨69, _⟩ => ⟨S800000x1, .f32⟩
  | .hbm, ⟨70, _⟩ => ⟨S_, .f32⟩
  | .hbm, ⟨71, _⟩ => ⟨S100000x1, .f32⟩
  | .hbm, ⟨72, _⟩ => ⟨S800000x1, .i32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call0_cst : Ref sig .tc := ⟨.hbm, 86, rfl⟩
abbrev main_call0_v0 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S800000x1 : S_.BroadcastsInDim S800000x1 (![] : Fin 0 → Fin S800000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000x1_S800000x1_S800000x1_1_0_0_1_wf : ScatterDims.WF S100000x1 S800000x1 S800000x1 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The result of the layer, one output row at a time.

  Output row `r` depends only on row `r` of the user features, of the two neighbour sums and of the two neighbour
  counts, and on the weights.  With `u = x · W_user + b_user` (the user's linear layer) and, per relation,
  `mean = agg / max(cnt, 1)` (the mean over the in-neighbours, a node without neighbours dividing by one), the row is

      relu( (mean_img · Wl_img + bl_img + u · Wr_img) + (mean_txt · Wl_txt + bl_txt + u · Wr_txt) )

  read at column `q`, every operation the exact one on the extended reals.  The sums associate as written here,
  which is how both programs add them, so no law of the extended reals beyond reading each operation at an index is
  needed to set either program beside this function.
-/
import Idealize.ShloMosaic.PureOps.Ideal
import Idealize.ShloMosaic.Lib.ValueIdx

noncomputable section

namespace Cert.Bridge.Spec

open Idealize.ShloMosaic

/-- The user's linear layer at column `k`: the row times the weight matrix, plus the bias. -/
def userLin (xrow : Fin 256 → EReal) (Wu : Fin 256 → Fin 128 → EReal) (bu : Fin 128 → EReal) (k : Fin 128) : EReal :=
  (∑ l : Fin 256, xrow l * Wu l k) + bu k

/-- The mean over the in-neighbours at column `k`: the neighbour sum over the neighbour count, the count raised to at
    least one so that a node without neighbours keeps its zero sum. -/
def meanRow (agg : Fin 128 → EReal) (cnt : EReal) (k : Fin 128) : EReal :=
  Ideal.div (agg k) (max cnt (Ideal.ofBits .f32 0x3F800000#32))

/-- One relation's convolution at column `q`: the neighbours' mean through `Wl` with its bias, plus the node's own
    row through `Wr`. -/
def sage (mean u : Fin 128 → EReal) (Wl : Fin 128 → Fin 128 → EReal) (bl : Fin 128 → EReal)
    (Wr : Fin 128 → Fin 128 → EReal) (q : Fin 128) : EReal :=
  ((∑ k : Fin 128, mean k * Wl k q) + bl q) + ∑ k : Fin 128, u k * Wr k q

/-- The output row at column `q`: the two relations' convolutions added, then clamped below at zero. -/
def rowOut (xrow : Fin 256 → EReal) (aggI : Fin 128 → EReal) (cntI : EReal) (aggT : Fin 128 → EReal) (cntT : EReal)
    (Wu : Fin 256 → Fin 128 → EReal) (bu : Fin 128 → EReal)
    (WlI : Fin 128 → Fin 128 → EReal) (blI : Fin 128 → EReal) (WrI : Fin 128 → Fin 128 → EReal)
    (WlT : Fin 128 → Fin 128 → EReal) (blT : Fin 128 → EReal) (WrT : Fin 128 → Fin 128 → EReal) (q : Fin 128) : EReal :=
  max (sage (meanRow aggI cntI) (userLin xrow Wu bu) WlI blI WrI q
        + sage (meanRow aggT cntT) (userLin xrow Wu bu) WlT blT WrT q)
      (Ideal.ofBits .f32 0x00000000#32)

end Cert.Bridge.Spec

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.KernelRow.lean ====
/-
  What the kernel body computes for one row of its block.

  The body's arithmetic is four pure terms of its loaded blocks.  Read at row `p` and column `q` of the 2000-row
  block, each is a piece of the per-row result:

    * the user's linear layer: the row of the feature block times the weight matrix, plus the one-row bias block;
    * a relation's mean: the row of the neighbour-sum block over the row's count, the count raised to at least one —
      the count block is a column, broadcast along the row;
    * a relation's neighbour term: that mean times `Wl`, plus the one-row bias block;
    * the stored value: each relation's neighbour term plus the linear layer's row times `Wr`, the two relations
      added, clamped below at zero.

  A change of float format is the identity on the extended reals and a product into a zero accumulator is the plain
  sum over the contracted axis, so the composite is the per-row result function of the block's rows.
-/
import proofs.«178428_j89137751261399_1_alg».proof.Proof.Gen.KernelIdeal.Skeleton
import proofs.«178428_j89137751261399_1_alg».proof.Proof.Spec
import proofs.«178428_j89137751261399_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.KernelRow

open Cert.KernelIdeal Cert.KernelIdeal.Gen Idealize.ShloMosaic Idealize.ShloMosaic.ValueIdx
open Cert.Bridge.Spec Cert.Bridge.Layout

/-! ## The two matrix products, read at an index -/

theorem matmul256_lhs0 (i : S2000x128.Idx) (c : dot_S2000x256_S256x128_S2000x128_1_0_0_1_n_n.contr.Idx) : (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem matmul256_lhs1 (i : S2000x128.Idx) (c : dot_S2000x256_S256x128_S2000x128_1_0_0_1_n_n.contr.Idx) : (dot_S2000x256_S256x128_S2000x128_1_0_0_1_n_n.lhsIdx i c 1).val = (c ⟨0, by decide⟩).val :=
  dot_S2000x256_S256x128_S2000x128_1_0_0_1_n_n.lhsIdx_val_of_single rfl i c
theorem matmul256_rhs0 (i : S2000x128.Idx) (c : dot_S2000x256_S256x128_S2000x128_1_0_0_1_n_n.contr.Idx) : (dot_S2000x256_S256x128_S2000x128_1_0_0_1_n_n.rhsIdx i c 0).val = (c ⟨0, by decide⟩).val :=
  dot_S2000x256_S256x128_S2000x128_1_0_0_1_n_n.rhsIdx_val_of_single rfl i c
theorem matmul256_rhs1 (i : S2000x128.Idx) (c : dot_S2000x256_S256x128_S2000x128_1_0_0_1_n_n.contr.Idx) : (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A [2000, 256] × [256, 128] product into the zero accumulator, at `(p, q)`: the sum over the 256 contracted
    positions of row `p` of the left operand times column `q` of the right. -/
theorem matmul256_apply (lhs : FVec Ideal S2000x256 .bf16) (rhs : FVec Ideal S256x128 .bf16) (p : Fin 2000) (q : Fin 128) :
    matmul dot_S2000x256_S256x128_S2000x128_1_0_0_1_n_n none lhs rhs (constant (F := Ideal) S2000x128 .f32 0x00000000#32) (ix2 p q)
      = ∑ k : Fin 256, lhs (ix2 p k) * rhs (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact matmul256_lhs0 _ _
    | ⟨1, _⟩ => exact (matmul256_lhs1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (matmul256_rhs0 _ _).trans hk
    | ⟨1, _⟩ => exact matmul256_rhs1 _ _)
  rw [el, er]

theorem matmul128_lhs0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem matmul128_lhs1 (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c
theorem matmul128_rhs0 (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c
theorem matmul128_rhs1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000, 128] × [128, 128] product into the zero accumulator, at `(p, q)`: the sum over the 128 contracted
    positions of row `p` of the left operand times column `q` of the right. -/
theorem matmul128_apply (lhs : FVec Ideal S2000x128 .bf16) (rhs : FVec Ideal S128x128 .bf16) (p : Fin 2000) (q : Fin 128) :
    matmul dot_S2000x128_S128x128_S2000x128_1_0_0_1_n_n none lhs rhs (constant (F := Ideal) S2000x128 .f32 0x00000000#32) (ix2 p q)
      = ∑ k : Fin 128, lhs (ix2 p k) * rhs (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact matmul128_lhs0 _ _
    | ⟨1, _⟩ => exact (matmul128_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (matmul128_rhs0 _ _).trans hk
    | ⟨1, _⟩ => exact matmul128_rhs1 _ _)
  rw [el, er]

/-! ## The payloads, read at an index -/

/-- The linear layer's payload at `(p, k)`. -/
theorem linear_apply (v0 : Vec Ideal S2000x256 .f32) (v2 : Vec Ideal S256x128 .f32) (v5 : Vec Ideal S1x128 .f32) (p : Fin 2000) (k : Fin 128) :
    k0_pay2 (F := Ideal) v0 v2 v5 (ix2 p k)
      = userLin (fun l => v0 (ix2 p l)) (fun l k => v2 (ix2 l k)) (fun k => v5 (ix2 (0 : Fin 1) k)) k := by
  unfold k0_pay2
  rw [shapeCast_self]
  show matmul dot_S2000x256_S256x128_S2000x128_1_0_0_1_n_n none (truncf .bf16 v0 bitsLt_bf16_f32) (truncf .bf16 v2 bitsLt_bf16_f32) (constant (F := Ideal) S2000x128 .f32 0x00000000#32) (ix2 p k)
      + broadcastTo S2000x128 v5 broadcasts_S1x128_S2000x128 (ix2 p k) = _
  rw [matmul256_apply, broadcastTo_1b_ab_apply]
  rfl

/-- A relation's mean at `(p, k)`: the sum block's element over the count column's element raised to at least one. -/
theorem mean_apply (a : Vec Ideal S2000x128 .f32) (c : Vec Ideal S2000x1 .f32) (p : Fin 2000) (k : Fin 128) :
    k0_pay3 (F := Ideal) a c (ix2 p k) = meanRow (fun k => a (ix2 p k)) (c (ix2 p (0 : Fin 1))) k := by
  unfold k0_pay3
  rw [shapeCast_self, shapeCast_self]
  show Ideal.div (a (ix2 p k)) (broadcastTo S2000x128 (maximumf (F := Ideal) c (broadcast S2000x1 (Scalar.ofBits (F := Ideal) .f32 0x3F800000#32))) broadcasts_S2000x1_S2000x128 (ix2 p k)) = _
  rw [broadcastTo_a1_an_apply]
  rfl

/-- A relation's neighbour term at `(p, q)`: its mean times `Wl`, plus the bias. -/
theorem neighbour_apply (v10 : Vec Ideal S2000x128 .f32) (v12 : Vec Ideal S2000x1 .f32) (v27 : Vec Ideal S128x128 .f32) (v30 : Vec Ideal S1x128 .f32)
    (p : Fin 2000) (q : Fin 128) :
    k0_pay4 (F := Ideal) v10 v12 v27 v30 (ix2 p q)
      = (∑ k : Fin 128, meanRow (fun k => v10 (ix2 p k)) (v12 (ix2 p (0 : Fin 1))) k * v27 (ix2 k q)) + v30 (ix2 (0 : Fin 1) q) := by
  have hm : ∀ k : Fin 128, k0_pay3 (F := Ideal) v10 v12 (ix2 p k) = meanRow (fun k => v10 (ix2 p k)) (v12 (ix2 p (0 : Fin 1))) k :=
    fun k => mean_apply v10 v12 p k
  unfold k0_pay4
  show matmul dot_S2000x128_S128x128_S2000x128_1_0_0_1_n_n none (truncf .bf16 (k0_pay3 (F := Ideal) v10 v12) bitsLt_bf16_f32) (truncf .bf16 v27 bitsLt_bf16_f32) (constant (F := Ideal) S2000x128 .f32 0x00000000#32) (ix2 p q)
      + broadcastTo S2000x128 (shapeCast S1x128 v30 shapeCasts_S1x128_S1x128) broadcasts_S1x128_S2000x128 (ix2 p q) = _
  rw [matmul128_apply, broadcastTo_1b_ab_apply, shapeCast_self]
  refine congrArg (· + v30 (ix2 (0 : Fin 1) q)) (Finset.sum_congr rfl fun k _ => ?_)
  show k0_pay3 (F := Ideal) v10 v12 (ix2 p k) * v27 (ix2 k q) = _
  rw [hm]

/-- The stored value at `(p, q)`, from the linear layer's block `u`, the second relation's mean block and the first
    relation's neighbour term block. -/
theorem stored_apply (u : FVec Ideal S2000x128 .bf16) (mT : FVec Ideal S2000x128 .f32) (nI : FVec Ideal S2000x128 .f32)
    (v34 v39 : Vec Ideal S128x128 .f32) (v42 : Vec Ideal S1x128 .f32) (v46 : Vec Ideal S128x128 .f32) (p : Fin 2000) (q : Fin 128) :
    k0_pay1 (F := Ideal) u mT nI v34 v39 v42 v46 (ix2 p q)
      = max ((nI (ix2 p q) + ∑ k : Fin 128, u (ix2 p k) * v34 (ix2 k q))
              + (((∑ k : Fin 128, mT (ix2 p k) * v39 (ix2 k q)) + v42 (ix2 (0 : Fin 1) q)) + ∑ k : Fin 128, u (ix2 p k) * v46 (ix2 k q)))
            (Ideal.ofBits .f32 0x00000000#32) := by
  unfold k0_pay1
  rw [shapeCast_self]
  show max ((nI (ix2 p q) + matmul dot_S2000x128_S128x128_S2000x128_1_0_0_1_n_n none u (truncf .bf16 v34 bitsLt_bf16_f32) (constant (F := Ideal) S2000x128 .f32 0x00000000#32) (ix2 p q))
        + ((matmul dot_S2000x128_S128x128_S2000x128_1_0_0_1_n_n none (truncf .bf16 mT bitsLt_bf16_f32) (truncf .bf16 v39 bitsLt_bf16_f32) (constant (F := Ideal) S2000x128 .f32 0x00000000#32) (ix2 p q)
              + broadcastTo S2000x128 v42 broadcasts_S1x128_S2000x128 (ix2 p q))
            + matmul dot_S2000x128_S128x128_S2000x128_1_0_0_1_n_n none u (truncf .bf16 v46 bitsLt_bf16_f32) (constant (F := Ideal) S2000x128 .f32 0x00000000#32) (ix2 p q)))
      (Ideal.ofBits .f32 0x00000000#32) = _
  rw [matmul128_apply, matmul128_apply, matmul128_apply, broadcastTo_1b_ab_apply]
  rfl

/-! ## The body's result for a row -/

/-- THE BODY'S STORED VALUE AT `(p, q)` is the per-row result of row `p` of each block, at column `q`. -/
theorem body_apply (x0 : Vec Ideal S2000x256 .f32) (x1 : Vec Ideal S2000x128 .f32) (x2 : Vec Ideal S2000x1 .f32)
    (x3 : Vec Ideal S2000x128 .f32) (x4 : Vec Ideal S2000x1 .f32) (x5 : Vec Ideal S256x128 .f32) (x6 : Vec Ideal S1x128 .f32)
    (x7 : Vec Ideal S128x128 .f32) (x8 : Vec Ideal S1x128 .f32) (x9 x10 : Vec Ideal S128x128 .f32) (x11 : Vec Ideal S1x128 .f32)
    (x12 : Vec Ideal S128x128 .f32) (p : Fin 2000) (q : Fin 128) :
    k0_pay1 (F := Ideal) (k0_pay2 x0 x5 x6) (k0_pay3 x3 x4) (k0_pay4 x1 x2 x7 x8) x9 x10 x11 x12 (ix2 p q)
      = rowOut (fun l => x0 (ix2 p l)) (fun k => x1 (ix2 p k)) (x2 (ix2 p (0 : Fin 1))) (fun k => x3 (ix2 p k)) (x4 (ix2 p (0 : Fin 1)))
          (fun l k => x5 (ix2 l k)) (fun k => x6 (ix2 (0 : Fin 1) k))
          (fun k q => x7 (ix2 k q)) (fun k => x8 (ix2 (0 : Fin 1) k)) (fun k q => x9 (ix2 k q))
          (fun k q => x10 (ix2 k q)) (fun k => x11 (ix2 (0 : Fin 1) k)) (fun k q => x12 (ix2 k q)) q := by
  rw [stored_apply, neighbour_apply]
  simp only [linear_apply, mean_apply]
  rfl

end Cert.Bridge.KernelRow

end
-- ==== Proof.KernelArray.lean ====
/-
  From what each grid point writes back to the whole result array.

  The result array [100000, 128] is cut into 50 blocks of 2000 rows; grid point `t` computes block `t`.  At that
  point the five row-blocked operands (the features, the two neighbour sums, the two neighbour counts) are staged at
  the same block of rows, and the eight weight and bias operands are staged whole.  So row `p` of a staged block is
  row `t · 2000 + p` of its array, and what the point writes back at `(p, q)` — the per-row result of the staged rows —
  is the per-row result of that row of the arrays.  The 50 blocks tile the array (row `r` lies in block `r / 2000`),
  so after the run the array holds, at every `(r, q)`, the per-row result of row `r`.
-/
import proofs.«178428_j89137751261399_1_alg».proof.Proof.Gen.KernelIdeal.Value
import proofs.«178428_j89137751261399_1_alg».proof.Proof.KernelRow
import Idealize.ShloMosaic.Lib.Pipeline.Value
import Idealize.ShloMosaic.Lib.ValueIdx

set_option maxRecDepth 16384

noncomputable section

namespace Cert.Bridge.KernelArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Bridge.Spec

variable (m : (ℓ : Loc nD τ sig) → Buf (Elt Ideal) ℓ) (ρ : Dev nD → PrngReg)

/-- Equal rows give equal results (the per-row result is a function of its fourteen arguments). -/
theorem rowOut_congr {x x' : Fin 256 → EReal} {aI aI' : Fin 128 → EReal} {cI cI' : EReal} {aT aT' : Fin 128 → EReal} {cT cT' : EReal}
    {Wu Wu' : Fin 256 → Fin 128 → EReal} {bu bu' : Fin 128 → EReal}
    {WlI WlI' : Fin 128 → Fin 128 → EReal} {blI blI' : Fin 128 → EReal} {WrI WrI' : Fin 128 → Fin 128 → EReal}
    {WlT WlT' : Fin 128 → Fin 128 → EReal} {blT blT' : Fin 128 → EReal} {WrT WrT' : Fin 128 → Fin 128 → EReal} {q q' : Fin 128}
    (h0 : x = x') (h1 : aI = aI') (h2 : cI = cI') (h3 : aT = aT') (h4 : cT = cT') (h5 : Wu = Wu') (h6 : bu = bu')
    (h7 : WlI = WlI') (h8 : blI = blI') (h9 : WrI = WrI') (h10 : WlT = WlT') (h11 : blT = blT') (h12 : WrT = WrT') (hq : q = q') :
    rowOut x aI cI aT cT Wu bu WlI blI WrI WlT blT WrT q = rowOut x' aI' cI' aT' cT' Wu' bu' WlI' blI' WrI' WlT' blT' WrT' q' := by
  subst h0 h1 h2 h3 h4 h5 h6 h7 h8 h9 h10 h11 h12 hq
  rfl

/-- The whole result array as a function of the thirteen arrays the call is given: at `(r, q)` the per-row result of
    row `r`. -/
def wholeOut (a0 : S100000x256.Idx → EReal) (a1 : S100000x128.Idx → EReal) (a2 : S100000x1.Idx → EReal)
    (a3 : S100000x128.Idx → EReal) (a4 : S100000x1.Idx → EReal) (a5 : S256x128.Idx → EReal) (a6 : S1x128.Idx → EReal)
    (a7 : S128x128.Idx → EReal) (a8 : S1x128.Idx → EReal) (a9 a10 : S128x128.Idx → EReal) (a11 : S1x128.Idx → EReal)
    (a12 : S128x128.Idx → EReal) : S100000x128.Idx → EReal := fun i =>
  rowOut (fun l => a0 (ix2 (⟨(i 0).val, (i 0).isLt⟩ : Fin 100000) l))
    (fun k => a1 (ix2 (⟨(i 0).val, (i 0).isLt⟩ : Fin 100000) k)) (a2 (ix2 (⟨(i 0).val, (i 0).isLt⟩ : Fin 100000) (0 : Fin 1)))
    (fun k => a3 (ix2 (⟨(i 0).val, (i 0).isLt⟩ : Fin 100000) k)) (a4 (ix2 (⟨(i 0).val, (i 0).isLt⟩ : Fin 100000) (0 : Fin 1)))
    (fun l k => a5 (ix2 l k)) (fun k => a6 (ix2 (0 : Fin 1) k))
    (fun k q => a7 (ix2 k q)) (fun k => a8 (ix2 (0 : Fin 1) k)) (fun k q => a9 (ix2 k q))
    (fun k q => a10 (ix2 k q)) (fun k => a11 (ix2 (0 : Fin 1) k)) (fun k q => a12 (ix2 k q))
    (⟨(i 1).val, (i 1).isLt⟩ : Fin 128)

/-- The result array the run leaves, from the thirteen operand arrays as the call finds them when it is entered
    (operand `w` of the call is window `w`'s array). -/
def found (c : Dev nD) : S100000x128.Idx → EReal :=
  wholeOut (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12))

/-! ## The index maps, decided over the 50 grid points -/

theorem hz : (![0, 0] : Fin 2 → Nat) = fun _ => 0 := funext fun a => by fin_cases a <;> rfl

/-- Each row-blocked operand sits at the result's block of rows and at column block 0; each whole operand at block 0;
    the result's block of rows is one of the 50, at column block 0. -/
theorem idx0 : ∀ t : Fin cfg0.N, win0_0.index t (0 : Fin 2) = win0_13.index t (0 : Fin 2) ∧ win0_0.index t (1 : Fin 2) = 0 :=
  (by decide +kernel : ∀ t : Fin grid0.N, _)
theorem idx1 : ∀ t : Fin cfg0.N, win0_1.index t (0 : Fin 2) = win0_13.index t (0 : Fin 2) ∧ win0_1.index t (1 : Fin 2) = 0 :=
  (by decide +kernel : ∀ t : Fin grid0.N, _)
theorem idx2 : ∀ t : Fin cfg0.N, win0_2.index t (0 : Fin 2) = win0_13.index t (0 : Fin 2) ∧ win0_2.index t (1 : Fin 2) = 0 :=
  (by decide +kernel : ∀ t : Fin grid0.N, _)
theorem idx3 : ∀ t : Fin cfg0.N, win0_3.index t (0 : Fin 2) = win0_13.index t (0 : Fin 2) ∧ win0_3.index t (1 : Fin 2) = 0 :=
  (by decide +kernel : ∀ t : Fin grid0.N, _)
theorem idx4 : ∀ t : Fin cfg0.N, win0_4.index t (0 : Fin 2) = win0_13.index t (0 : Fin 2) ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) ≤ 49 ∧ win0_13.index t (1 : Fin 2) = 0 :=
  (by decide +kernel : ∀ t : Fin grid0.N, _)

/-- Every block of rows is some grid point's. -/
theorem idx_onto : ∀ b : Fin 50, ∃ t : Fin cfg0.N, win0_13.index t = ![b.val, 0] :=
  (by decide +kernel : ∀ b : Fin 50, ∃ t : Fin grid0.N, win0_13.index t = ![b.val, 0])

/-! ## A staged block read at an index is its array read at an index -/

/-- Row `p` of window 0's block at point `t` is row `R` of its array, where `R` is `p` rows into the point's block of rows. -/
theorem read0 (c : Dev nD) (t : Fin cfg0.N) (p : Fin 2000) (l : Fin 256) (R : Fin 100000) (hR : R.val = win0_13.index t (0 : Fin 2) * 2000 + p.val) :
    iblk m c 0 t (ix2 p l) = (V m c (Pipeline.arrRef spec0 0)) (ix2 R l) := by
  obtain ⟨e0, e1⟩ := idx0 t
  have e : ((cfg0.win 0).blk t).view.emb (ix2 p l) = ix2 R l := funext fun a => Fin.ext (by
    match a with
    | ⟨0, _⟩ => show win0_0.index t (0 : Fin 2) * 2000 + 1 * p.val = R.val; omega
    | ⟨1, _⟩ => show win0_0.index t (1 : Fin 2) * 256 + 1 * l.val = l.val; omega)
  unfold iblk
  generalize (V m c (Pipeline.arrRef spec0 0)) = A
  rw [View.read_apply, e]
  exact cast_eq _ _

/-- Row `p` of window 1's block at point `t` is row `R` of its array, where `R` is `p` rows into the point's block of rows. -/
theorem read1 (c : Dev nD) (t : Fin cfg0.N) (p : Fin 2000) (l : Fin 128) (R : Fin 100000) (hR : R.val = win0_13.index t (0 : Fin 2) * 2000 + p.val) :
    iblk m c 1 t (ix2 p l) = (V m c (Pipeline.arrRef spec0 1)) (ix2 R l) := by
  obtain ⟨e0, e1⟩ := idx1 t
  have e : ((cfg0.win 1).blk t).view.emb (ix2 p l) = ix2 R l := funext fun a => Fin.ext (by
    match a with
    | ⟨0, _⟩ => show win0_1.index t (0 : Fin 2) * 2000 + 1 * p.val = R.val; omega
    | ⟨1, _⟩ => show win0_1.index t (1 : Fin 2) * 128 + 1 * l.val = l.val; omega)
  unfold iblk
  generalize (V m c (Pipeline.arrRef spec0 1)) = A
  rw [View.read_apply, e]
  exact cast_eq _ _

/-- Row `p` of window 2's one-column block at point `t` is row `R` of its array. -/
theorem read2 (c : Dev nD) (t : Fin cfg0.N) (p : Fin 2000) (R : Fin 100000) (hR : R.val = win0_13.index t (0 : Fin 2) * 2000 + p.val) :
    iblk m c 2 t (ix2 p (0 : Fin 1)) = (V m c (Pipeline.arrRef spec0 2)) (ix2 R (0 : Fin 1)) := by
  obtain ⟨e0, e1⟩ := idx2 t
  have e : ((cfg0.win 2).blk t).view.emb (ix2 p (0 : Fin 1)) = ix2 R (0 : Fin 1) := funext fun a => Fin.ext (by
    match a with
    | ⟨0, _⟩ => show win0_2.index t (0 : Fin 2) * 2000 + 1 * p.val = R.val; omega
    | ⟨1, _⟩ => show win0_2.index t (1 : Fin 2) * 1 + 1 * 0 = 0; omega)
  unfold iblk
  generalize (V m c (Pipeline.arrRef spec0 2)) = A
  rw [View.read_apply, e]
  exact cast_eq _ _

/-- Row `p` of window 3's block at point `t` is row `R` of its array, where `R` is `p` rows into the point's block of rows. -/
theorem read3 (c : Dev nD) (t : Fin cfg0.N) (p : Fin 2000) (l : Fin 128) (R : Fin 100000) (hR : R.val = win0_13.index t (0 : Fin 2) * 2000 + p.val) :
    iblk m c 3 t (ix2 p l) = (V m c (Pipeline.arrRef spec0 3)) (ix2 R l) := by
  obtain ⟨e0, e1⟩ := idx3 t
  have e : ((cfg0.win 3).blk t).view.emb (ix2 p l) = ix2 R l := funext fun a => Fin.ext (by
    match a with
    | ⟨0, _⟩ => show win0_3.index t (0 : Fin 2) * 2000 + 1 * p.val = R.val; omega
    | ⟨1, _⟩ => show win0_3.index t (1 : Fin 2) * 128 + 1 * l.val = l.val; omega)
  unfold iblk
  generalize (V m c (Pipeline.arrRef spec0 3)) = A
  rw [View.read_apply, e]
  exact cast_eq _ _

/-- Row `p` of window 4's one-column block at point `t` is row `R` of its array. -/
theorem read4 (c : Dev nD) (t : Fin cfg0.N) (p : Fin 2000) (R : Fin 100000) (hR : R.val = win0_13.index t (0 : Fin 2) * 2000 + p.val) :
    iblk m c 4 t (ix2 p (0 : Fin 1)) = (V m c (Pipeline.arrRef spec0 4)) (ix2 R (0 : Fin 1)) := by
  obtain ⟨e0, e1⟩ := idx4 t
  have e : ((cfg0.win 4).blk t).view.emb (ix2 p (0 : Fin 1)) = ix2 R (0 : Fin 1) := funext fun a => Fin.ext (by
    match a with
    | ⟨0, _⟩ => show win0_4.index t (0 : Fin 2) * 2000 + 1 * p.val = R.val; omega
    | ⟨1, _⟩ => show win0_4.index t (1 : Fin 2) * 1 + 1 * 0 = 0; omega)
  unfold iblk
  generalize (V m c (Pipeline.arrRef spec0 4)) = A
  rw [View.read_apply, e]
  exact cast_eq _ _

/-- Window 5 stages its whole array at every point. -/
theorem read5 (c : Dev nD) (t : Fin cfg0.N) (k : Fin 256) (k' : Fin 128) :
    iblk m c 5 t (ix2 k k') = (V m c (Pipeline.arrRef spec0 5)) (ix2 k k') := by
  obtain ⟨e0, e1⟩ := idx5 t
  have e : ((cfg0.win 5).blk t).view.emb (ix2 k k') = ix2 k k' := funext fun a => Fin.ext (by
    match a with
    | ⟨0, _⟩ => show win0_5.index t (0 : Fin 2) * 256 + 1 * k.val = k.val; omega
    | ⟨1, _⟩ => show win0_5.index t (1 : Fin 2) * 128 + 1 * k'.val = k'.val; omega)
  unfold iblk
  generalize (V m c (Pipeline.arrRef spec0 5)) = A
  rw [View.read_apply, e]
  exact cast_eq _ _

/-- Window 6 stages its whole one-row array at every point. -/
theorem read6 (c : Dev nD) (t : Fin cfg0.N) (k : Fin 128) :
    iblk m c 6 t (ix2 (0 : Fin 1) k) = (V m c (Pipeline.arrRef spec0 6)) (ix2 (0 : Fin 1) k) := by
  obtain ⟨e0, e1⟩ := idx6 t
  have e : ((cfg0.win 6).blk t).view.emb (ix2 (0 : Fin 1) k) = ix2 (0 : Fin 1) k := funext fun a => Fin.ext (by
    match a with
    | ⟨0, _⟩ => show win0_6.index t (0 : Fin 2) * 1 + 1 * 0 = 0; omega
    | ⟨1, _⟩ => show win0_6.index t (1 : Fin 2) * 128 + 1 * k.val = k.val; omega)
  unfold iblk
  generalize (V m c (Pipeline.arrRef spec0 6)) = A
  rw [View.read_apply, e]
  exact cast_eq _ _

/-- Window 7 stages its whole array at every point. -/
theorem read7 (c : Dev nD) (t : Fin cfg0.N) (k : Fin 128) (k' : Fin 128) :
    iblk m c 7 t (ix2 k k') = (V m c (Pipeline.arrRef spec0 7)) (ix2 k k') := by
  obtain ⟨e0, e1⟩ := idx7 t
  have e : ((cfg0.win 7).blk t).view.emb (ix2 k k') = ix2 k k' := funext fun a => Fin.ext (by
    match a with
    | ⟨0, _⟩ => show win0_7.index t (0 : Fin 2) * 128 + 1 * k.val = k.val; omega
    | ⟨1, _⟩ => show win0_7.index t (1 : Fin 2) * 128 + 1 * k'.val = k'.val; omega)
  unfold iblk
  generalize (V m c (Pipeline.arrRef spec0 7)) = A
  rw [View.read_apply, e]
  exact cast_eq _ _

/-- Window 8 stages its whole one-row array at every point. -/
theorem read8 (c : Dev nD) (t : Fin cfg0.N) (k : Fin 128) :
    iblk m c 8 t (ix2 (0 : Fin 1) k) = (V m c (Pipeline.arrRef spec0 8)) (ix2 (0 : Fin 1) k) := by
  obtain ⟨e0, e1⟩ := idx8 t
  have e : ((cfg0.win 8).blk t).view.emb (ix2 (0 : Fin 1) k) = ix2 (0 : Fin 1) k := funext fun a => Fin.ext (by
    match a with
    | ⟨0, _⟩ => show win0_8.index t (0 : Fin 2) * 1 + 1 * 0 = 0; omega
    | ⟨1, _⟩ => show win0_8.index t (1 : Fin 2) * 128 + 1 * k.val = k.val; omega)
  unfold iblk
  generalize (V m c (Pipeline.arrRef spec0 8)) = A
  rw [View.read_apply, e]
  exact cast_eq _ _

/-- Window 9 stages its whole array at every point. -/
theorem read9 (c : Dev nD) (t : Fin cfg0.N) (k : Fin 128) (k' : Fin 128) :
    iblk m c 9 t (ix2 k k') = (V m c (Pipeline.arrRef spec0 9)) (ix2 k k') := by
  obtain ⟨e0, e1⟩ := idx9 t
  have e : ((cfg0.win 9).blk t).view.emb (ix2 k k') = ix2 k k' := funext fun a => Fin.ext (by
    match a with
    | ⟨0, _⟩ => show win0_9.index t (0 : Fin 2) * 128 + 1 * k.val = k.val; omega
    | ⟨1, _⟩ => show win0_9.index t (1 : Fin 2) * 128 + 1 * k'.val = k'.val; omega)
  unfold iblk
  generalize (V m c (Pipeline.arrRef spec0 9)) = A
  rw [View.read_apply, e]
  exact cast_eq _ _

/-- Window 10 stages its whole array at every point. -/
theorem read10 (c : Dev nD) (t : Fin cfg0.N) (k : Fin 128) (k' : Fin 128) :
    iblk m c 10 t (ix2 k k') = (V m c (Pipeline.arrRef spec0 10)) (ix2 k k') := by
  obtain ⟨e0, e1⟩ := idx10 t
  have e : ((cfg0.win 10).blk t).view.emb (ix2 k k') = ix2 k k' := funext fun a => Fin.ext (by
    match a with
    | ⟨0, _⟩ => show win0_10.index t (0 : Fin 2) * 128 + 1 * k.val = k.val; omega
    | ⟨1, _⟩ => show win0_10.index t (1 : Fin 2) * 128 + 1 * k'.val = k'.val; omega)
  unfold iblk
  generalize (V m c (Pipeline.arrRef spec0 10)) = A
  rw [View.read_apply, e]
  exact cast_eq _ _

/-- Window 11 stages its whole one-row array at every point. -/
theorem read11 (c : Dev nD) (t : Fin cfg0.N) (k : Fin 128) :
    iblk m c 11 t (ix2 (0 : Fin 1) k) = (V m c (Pipeline.arrRef spec0 11)) (ix2 (0 : Fin 1) k) := by
  obtain ⟨e0, e1⟩ := idx11 t
  have e : ((cfg0.win 11).blk t).view.emb (ix2 (0 : Fin 1) k) = ix2 (0 : Fin 1) k := funext fun a => Fin.ext (by
    match a with
    | ⟨0, _⟩ => show win0_11.index t (0 : Fin 2) * 1 + 1 * 0 = 0; omega
    | ⟨1, _⟩ => show win0_11.index t (1 : Fin 2) * 128 + 1 * k.val = k.val; omega)
  unfold iblk
  generalize (V m c (Pipeline.arrRef spec0 11)) = A
  rw [View.read_apply, e]
  exact cast_eq _ _

/-- Window 12 stages its whole array at every point. -/
theorem read12 (c : Dev nD) (t : Fin cfg0.N) (k : Fin 128) (k' : Fin 128) :
    iblk m c 12 t (ix2 k k') = (V m c (Pipeline.arrRef spec0 12)) (ix2 k k') := by
  obtain ⟨e0, e1⟩ := idx12 t
  have e : ((cfg0.win 12).blk t).view.emb (ix2 k k') = ix2 k k' := funext fun a => Fin.ext (by
    match a with
    | ⟨0, _⟩ => show win0_12.index t (0 : Fin 2) * 128 + 1 * k.val = k.val; omega
    | ⟨1, _⟩ => show win0_12.index t (1 : Fin 2) * 128 + 1 * k'.val = k'.val; omega)
  unfold iblk
  generalize (V m c (Pipeline.arrRef spec0 12)) = A
  rw [View.read_apply, e]
  exact cast_eq _ _

/-! ## What grid point `t` writes back -/

/-- At `(p, q)` of point `t`'s block the body's stored value is the whole result function at the array index under it. -/
theorem point_eq (c : Dev nD) (t : Fin cfg0.N) (p : Fin 2000) (q : Fin 128) :
    k0_pay1 (F := Ideal) (k0_pay2 (iblk m c 0 t) (iblk m c 5 t) (iblk m c 6 t)) (k0_pay3 (iblk m c 3 t) (iblk m c 4 t))
        (k0_pay4 (iblk m c 1 t) (iblk m c 2 t) (iblk m c 7 t) (iblk m c 8 t)) (iblk m c 9 t) (iblk m c 10 t) (iblk m c 11 t) (iblk m c 12 t) (ix2 p q)
      = found m c (((cfg0.win 13).blk t).view.emb (ix2 p q)) := by
  obtain ⟨ed0, ed1⟩ := idx13 t
  have hr : ((((cfg0.win 13).blk t).view.emb (ix2 p q)) 0).val = win0_13.index t (0 : Fin 2) * 2000 + p.val := by
    show win0_13.index t (0 : Fin 2) * 2000 + 1 * p.val = _
    omega
  have hc : ((((cfg0.win 13).blk t).view.emb (ix2 p q)) 1).val = q.val := by
    show win0_13.index t (1 : Fin 2) * 128 + 1 * q.val = _
    omega
  refine (Cert.Bridge.KernelRow.body_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) p q).trans ?_
  unfold found wholeOut
  exact rowOut_congr (funext fun l => read0 m c t p l _ hr) (funext fun k => read1 m c t p k _ hr) (read2 m c t p _ hr)
    (funext fun k => read3 m c t p k _ hr) (read4 m c t p _ hr) (funext fun l => funext fun k => read5 m c t l k) (funext fun k => read6 m c t k)
    (funext fun k => funext fun k' => read7 m c t k k') (funext fun k => read8 m c t k) (funext fun k => funext fun k' => read9 m c t k k')
    (funext fun k => funext fun k' => read10 m c t k k') (funext fun k => read11 m c t k) (funext fun k => funext fun k' => read12 m c t k k')
    (Fin.ext hc.symm)

/-- A computed block that agrees, index by index, with an array function under the result window's block at `t` is what
    reading that block of the function gives (the result window is never cut). -/
theorem cut_eq_read (t : Fin cfg0.N) (X : Vec Ideal S2000x128 .f32) (G : S100000x128.Idx → EReal)
    (h : ∀ (p : Fin 2000) (q : Fin 128), X (ix2 p q) = G (((cfg0.win 13).blk t).view.emb (ix2 p q))) :
    (cfg0.win 13).cut (grid0.coords t) X = ((cfg0.win 13).blk t).view.read (Elt Ideal) G := by
  funext j
  obtain ⟨p, q, rfl⟩ : ∃ (p : Fin 2000) (q : Fin 128), j = ix2 p q := ⟨j 0, j 1, eq_ix2 j⟩
  rw [View.read_apply]
  exact (h p q).trans (cast_eq _ _).symm

/-- WHAT POINT `t` WRITES BACK is block `t` of the whole result function of the arrays the call finds. -/
theorem flushed_eq (c : Dev nD) (t : Fin cfg0.N) :
    (dats m 0 c).flushed 13 t = ((cfg0.win 13).blk t).view.read (Elt Ideal) (found m c) := by
  show (cfg0.win 13).cut (grid0.coords t) ((dats m 0 c).after 13 t) = _
  rw [after0_13]
  unfold out0_13
  rw [View.canon_unit_zero hz]
  simp only [View.ld_unit_zero (S := S2000x256) hz, View.ld_unit_zero (S := S256x128) hz, View.ld_unit_zero (S := S1x128) hz,
    View.ld_unit_zero (S := S2000x128) hz, View.ld_unit_zero (S := S2000x1) hz, View.ld_unit_zero (S := S128x128) hz]
  exact cut_eq_read t _ _ (point_eq m c t)

/-! ## The blocks tile the array -/

/-- An index of the array is in point `t`'s block iff each coordinate is in the block's range on its axis. -/
theorem mem_blk (t : Fin cfg0.N) (i : S100000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v41).slice (win0_13.rect t)).set ↔ _
  rw [View.set_slice_whole, Rect.mem_set_unit]
  exact Iff.rfl

/-- Every index of the result array lies in the block of the grid point for its block of rows. -/
theorem covered (i : S100000x128.Idx) : ∃ t : Fin cfg0.N, (cfg0.win 13).flush t = true ∧ i ∈ ((cfg0.win 13).blk t).view.set := by
  have hi0 : (i 0).val < 100000 := (i 0).isLt
  have hi1 : (i 1).val < 128 := (i 1).isLt
  obtain ⟨t, ht⟩ := idx_onto ⟨(i 0).val / 2000, by omega⟩
  have q0 : win0_13.index t (0 : Fin 2) = (i 0).val / 2000 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 128 ≤ (i 1).val ∧ (i 1).val < win0_13.index t (1 : Fin 2) * 128 + 128; omega

/-! ## The array after the run -/

/-- THE RESULT ARRAY AFTER THE RUN is the whole result function of the arrays the call finds. -/
theorem final (c : Dev nD) : (dats m 0 c).arrAt 13 cfg0.N = found m c :=
  (dats m 0 c).arrAt_eq_of_cover 13 (found m c) (fun t _ => flushed_eq m c t) covered

end Cert.Bridge.KernelArray

end
-- ==== Proof.RefRow.lean ====
/-
  What the reference computes for one row of its result.

  The reference is a straight line of whole-array operations.  Read at row `r`, each stage touches only row `r` of
  its operands: a matrix product is the sum over the contracted axis of row `r` times a column, a bias broadcast
  reads the bias at the column, the count column broadcast along the row reads the row's count, and the pointwise
  operations act element by element.  The two neighbour sums and the two neighbour counts (gathers and scatters,
  which depend on the edge lists' values) are left as the arrays they are.  Composed, the result at `(r, q)` is the
  per-row result function of row `r` of those arrays.
-/
import proofs.«178428_j89137751261399_1_alg».proof.Proof.Gen.ReferenceIdeal.Read
import proofs.«178428_j89137751261399_1_alg».proof.Proof.Spec
import Idealize.ShloMosaic.Lib.ValueIdx

noncomputable section

namespace Cert.Bridge.RefRow

open Cert.ReferenceIdeal Cert.ReferenceIdeal.Read Idealize.ShloMosaic Idealize.ShloMosaic.ValueIdx
open Cert.Bridge.Spec

/-! ## The linear layer -/

theorem linear_apply (x0 : (⟨S100000x256, .f32⟩ : BufTy).Contents (Elt Ideal)) (x5 : (⟨S256x128, .f32⟩ : BufTy).Contents (Elt Ideal)) (x6 : (⟨S128, .f32⟩ : BufTy).Contents (Elt Ideal)) (r : Fin 100000) (k : Fin 128) :
    val_main_v3 (F := Ideal) x0 x5 x6 (ix2 r k)
      = userLin (fun l => x0 (ix2 r l)) (fun l k => x5 (ix2 l k)) (fun k => x6 (ix1 k)) k := by
  rw [val_main_v3_apply, val_main_v0_apply, val_main_v2_apply, val_main_v1_apply]
  have hs : (∑ l : Fin 256, x0 (lidx_main_v0 (ix2 r k) l) * x5 (ridx_main_v0 (ix2 r k) l))
      = ∑ l : Fin 256, x0 (ix2 r l) * x5 (ix2 l k) :=
    Finset.sum_congr rfl fun l _ => by
      have e1 : lidx_main_v0 (ix2 r k) l = ix2 r l := funext fun a => match a with | ⟨0, _⟩ => rfl | ⟨1, _⟩ => rfl
      have e2 : ridx_main_v0 (ix2 r k) l = ix2 l k := funext fun a => match a with | ⟨0, _⟩ => rfl | ⟨1, _⟩ => rfl
      rw [e1, e2]
  have eb : idx_main_v1 (idx_main_v2 (ix2 r k)) = ix1 k := funext fun a => match a with | ⟨0, _⟩ => rfl
  rw [hs, eb]
  rfl

/-! ## The two means -/

theorem mean_img_apply (x1 : (⟨S100000x128, .f32⟩ : BufTy).Contents (Elt Ideal)) (x3 : (⟨S2x800000, .i32⟩ : BufTy).Contents (Elt Ideal)) (r : Fin 100000) (k : Fin 128) :
    val_main_v25 (F := Ideal) x1 x3 (ix2 r k)
      = meanRow (fun k => val_main_v17 (F := Ideal) x1 x3 (ix2 r k)) (val_main_v21 (F := Ideal) x3 (ix2 r (0 : Fin 1))) k := by
  rw [val_main_v25_apply, val_main_v24_apply, val_main_v23_apply, val_main_v22_apply, val_main_cst_3_apply]
  have e : idx_main_v24 (ix2 r k) = ix2 r (0 : Fin 1) := funext fun a => match a with | ⟨0, _⟩ => rfl | ⟨1, _⟩ => rfl
  rw [e]
  rfl

theorem mean_txt_apply (x2 : (⟨S100000x128, .f32⟩ : BufTy).Contents (Elt Ideal)) (x4 : (⟨S2x800000, .i32⟩ : BufTy).Contents (Elt Ideal)) (r : Fin 100000) (k : Fin 128) :
    val_main_v53 (F := Ideal) x2 x4 (ix2 r k)
      = meanRow (fun k => val_main_v45 (F := Ideal) x2 x4 (ix2 r k)) (val_main_v49 (F := Ideal) x4 (ix2 r (0 : Fin 1))) k := by
  rw [val_main_v53_apply, val_main_v52_apply, val_main_v51_apply, val_main_v50_apply, val_main_cst_9_apply]
  have e : idx_main_v52 (ix2 r k) = ix2 r (0 : Fin 1) := funext fun a => match a with | ⟨0, _⟩ => rfl | ⟨1, _⟩ => rfl
  rw [e]
  rfl

/-! ## The two relations' convolutions -/

theorem conv_img_apply (x0 : (⟨S100000x256, .f32⟩ : BufTy).Contents (Elt Ideal)) (x1 : (⟨S100000x128, .f32⟩ : BufTy).Contents (Elt Ideal)) (x3 : (⟨S2x800000, .i32⟩ : BufTy).Contents (Elt Ideal)) (x5 : (⟨S256x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (r : Fin 100000) (q : Fin 128) :
    val_main_v31 (F := Ideal) x0 x1 x3 x5 x6 x7 x8 x9 (ix2 r q)
      = sage (meanRow (fun k => val_main_v17 (F := Ideal) x1 x3 (ix2 r k)) (val_main_v21 (F := Ideal) x3 (ix2 r (0 : Fin 1))))
          (userLin (fun l => x0 (ix2 r l)) (fun l k => x5 (ix2 l k)) (fun k => x6 (ix1 k)))
          (fun k q => x7 (ix2 k q)) (fun k => x8 (ix1 k)) (fun k q => x9 (ix2 k q)) q := by
  rw [val_main_v31_apply, val_main_v29_apply, val_main_v26_apply, val_main_v28_apply, val_main_v27_apply, val_main_v30_apply]
  have h1 : (∑ k : Fin 128, (val_main_v25 (F := Ideal) x1 x3) (lidx_main_v26 (ix2 r q) k) * x7 (ridx_main_v26 (ix2 r q) k))
      = ∑ k : Fin 128, meanRow (fun k => val_main_v17 (F := Ideal) x1 x3 (ix2 r k)) (val_main_v21 (F := Ideal) x3 (ix2 r (0 : Fin 1))) k * x7 (ix2 k q) :=
    Finset.sum_congr rfl fun k _ => by
      have e1 : lidx_main_v26 (ix2 r q) k = ix2 r k := funext fun a => match a with | ⟨0, _⟩ => rfl | ⟨1, _⟩ => rfl
      have e2 : ridx_main_v26 (ix2 r q) k = ix2 k q := funext fun a => match a with | ⟨0, _⟩ => rfl | ⟨1, _⟩ => rfl
      rw [e1, e2, mean_img_apply]
  have h2 : (∑ k : Fin 128, (val_main_v3 (F := Ideal) x0 x5 x6) (lidx_main_v30 (ix2 r q) k) * x9 (ridx_main_v30 (ix2 r q) k))
      = ∑ k : Fin 128, userLin (fun l => x0 (ix2 r l)) (fun l k => x5 (ix2 l k)) (fun k => x6 (ix1 k)) k * x9 (ix2 k q) :=
    Finset.sum_congr rfl fun k _ => by
      have e1 : lidx_main_v30 (ix2 r q) k = ix2 r k := funext fun a => match a with | ⟨0, _⟩ => rfl | ⟨1, _⟩ => rfl
      have e2 : ridx_main_v30 (ix2 r q) k = ix2 k q := funext fun a => match a with | ⟨0, _⟩ => rfl | ⟨1, _⟩ => rfl
      rw [e1, e2, linear_apply]
  have eb : idx_main_v27 (idx_main_v28 (ix2 r q)) = ix1 q := funext fun a => match a with | ⟨0, _⟩ => rfl
  rw [h1, h2, eb]
  rfl

theorem conv_txt_apply (x0 : (⟨S100000x256, .f32⟩ : BufTy).Contents (Elt Ideal)) (x2 : (⟨S100000x128, .f32⟩ : BufTy).Contents (Elt Ideal)) (x4 : (⟨S2x800000, .i32⟩ : BufTy).Contents (Elt Ideal)) (x5 : (⟨S256x128, .f32⟩ : BufTy).Contents (Elt Ideal)) (x6 : (⟨S128, .f32⟩ : BufTy).Contents (Elt Ideal))
    (x10 : (⟨S128x128, .f32⟩ : BufTy).Contents (Elt Ideal)) (x11 : (⟨S128, .f32⟩ : BufTy).Contents (Elt Ideal)) (x12 : (⟨S128x128, .f32⟩ : BufTy).Contents (Elt Ideal)) (r : Fin 100000) (q : Fin 128) :
    val_main_v59 (F := Ideal) x0 x2 x4 x5 x6 x10 x11 x12 (ix2 r q)
      = sage (meanRow (fun k => val_main_v45 (F := Ideal) x2 x4 (ix2 r k)) (val_main_v49 (F := Ideal) x4 (ix2 r (0 : Fin 1))))
          (userLin (fun l => x0 (ix2 r l)) (fun l k => x5 (ix2 l k)) (fun k => x6 (ix1 k)))
          (fun k q => x10 (ix2 k q)) (fun k => x11 (ix1 k)) (fun k q => x12 (ix2 k q)) q := by
  rw [val_main_v59_apply, val_main_v57_apply, val_main_v54_apply, val_main_v56_apply, val_main_v55_apply, val_main_v58_apply]
  have h1 : (∑ k : Fin 128, (val_main_v53 (F := Ideal) x2 x4) (lidx_main_v54 (ix2 r q) k) * x10 (ridx_main_v54 (ix2 r q) k))
      = ∑ k : Fin 128, meanRow (fun k => val_main_v45 (F := Ideal) x2 x4 (ix2 r k)) (val_main_v49 (F := Ideal) x4 (ix2 r (0 : Fin 1))) k * x10 (ix2 k q) :=
    Finset.sum_congr rfl fun k _ => by
      have e1 : lidx_main_v54 (ix2 r q) k = ix2 r k := funext fun a => match a with | ⟨0, _⟩ => rfl | ⟨1, _⟩ => rfl
      have e2 : ridx_main_v54 (ix2 r q) k = ix2 k q := funext fun a => match a with | ⟨0, _⟩ => rfl | ⟨1, _⟩ => rfl
      rw [e1, e2, mean_txt_apply]
  have h2 : (∑ k : Fin 128, (val_main_v3 (F := Ideal) x0 x5 x6) (lidx_main_v58 (ix2 r q) k) * x12 (ridx_main_v58 (ix2 r q) k))
      = ∑ k : Fin 128, userLin (fun l => x0 (ix2 r l)) (fun l k => x5 (ix2 l k)) (fun k => x6 (ix1 k)) k * x12 (ix2 k q) :=
    Finset.sum_congr rfl fun k _ => by
      have e1 : lidx_main_v58 (ix2 r q) k = ix2 r k := funext fun a => match a with | ⟨0, _⟩ => rfl | ⟨1, _⟩ => rfl
      have e2 : ridx_main_v58 (ix2 r q) k = ix2 k q := funext fun a => match a with | ⟨0, _⟩ => rfl | ⟨1, _⟩ => rfl
      rw [e1, e2, linear_apply]
  have eb : idx_main_v55 (idx_main_v56 (ix2 r q)) = ix1 q := funext fun a => match a with | ⟨0, _⟩ => rfl
  rw [h1, h2, eb]
  rfl

/-! ## The result -/

/-- THE REFERENCE'S RESULT AT `(r, q)` is the per-row result of row `r` of the features, of the neighbour sums and
    of the neighbour counts, at column `q`. -/
theorem result_apply (x0 : (⟨S100000x256, .f32⟩ : BufTy).Contents (Elt Ideal)) (x1 x2 : (⟨S100000x128, .f32⟩ : BufTy).Contents (Elt Ideal)) (x3 x4 : (⟨S2x800000, .i32⟩ : BufTy).Contents (Elt Ideal)) (x5 : (⟨S256x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 : (⟨S128x128, .f32⟩ : BufTy).Contents (Elt Ideal)) (r : Fin 100000) (q : Fin 128) :
    val_main_v61 (F := Ideal) x0 x1 x2 x3 x4 x5 x6 x7 x8 x9 x10 x11 x12 (ix2 r q)
      = rowOut (fun l => x0 (ix2 r l))
          (fun k => val_main_v17 (F := Ideal) x1 x3 (ix2 r k)) (val_main_v21 (F := Ideal) x3 (ix2 r (0 : Fin 1)))
          (fun k => val_main_v45 (F := Ideal) x2 x4 (ix2 r k)) (val_main_v49 (F := Ideal) x4 (ix2 r (0 : Fin 1)))
          (fun l k => x5 (ix2 l k)) (fun k => x6 (ix1 k))
          (fun k q => x7 (ix2 k q)) (fun k => x8 (ix1 k)) (fun k q => x9 (ix2 k q))
          (fun k q => x10 (ix2 k q)) (fun k => x11 (ix1 k)) (fun k q => x12 (ix2 k q)) q := by
  rw [val_main_v61_apply, val_main_v60_apply, conv_img_apply, conv_txt_apply, val_main_call0_v0_apply, val_main_call0_cst_apply]
  rfl

end Cert.Bridge.RefRow

end
-- ==== Proof.LibScatterCount.lean ====
/-
  Counting in-neighbours: scattering ones into a vector, or into a one-column matrix.

  An accumulating scatter adds, to each element of its operand, the updates whose computed index lands on that
  element.  Scatter `E` updates along one index column into `N` places in two layouts:

    * flat: the operand is a vector `[N]`, the updates a vector `[E]`, update `e` lands on place `idx[e, 0]`;
    * column: the operand is a matrix `[N, 1]`, the updates a matrix `[E, 1]` with a window axis of extent one,
      update `(e, 0)` lands on `(idx[e, 0], 0)`: the window axis contributes start `0` and window coordinate `0`.

  In both, update `e` lands on place `n` exactly when the index word `idx[e, 0]`, read signed, is `n` (an index
  outside `0 … N-1` lands nowhere in either).  The updates are in bijection by `e ↦ (e, 0)`, so the two sums have the
  same terms and the column layout at `(n, 0)` is the flat layout at `n`.  Stated for every `N` and `E`.
-/
import Idealize.ShloMosaic.PureOps.Ideal
import Idealize.ShloMosaic.PureOps.Contract
import Idealize.ShloMosaic.Lib.ValueIdx

noncomputable section

namespace Cert.Bridge.Count

open Idealize.ShloMosaic Idealize.ShloMosaic.ValueIdx

variable {N E : Nat}

/-- The flat scatter's dimension numbers: no window axis, the one operand axis inserted and indexed. -/
abbrev flat (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- The column scatter's dimension numbers: the unit axis a window axis, the long axis inserted and indexed. -/
abbrev column (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ := ⟨[1], [0], [0], 1, wf⟩

/-! ## Where an update starts and which window coordinate it carries -/

theorem flat_start (wf) {w : Nat} (e : Fin E) (idx : IVec ⟨2, ![E, 1]⟩ w) (a : Fin 1) :
    (flat (N := N) wf).start (ix1 e) idx a = (idx (ix2 e (0 : Fin 1))).toInt := by
  match a with
  | ⟨0, h0⟩ =>
    unfold ScatterDims.start
    rw [dif_pos (show (⟨0, h0⟩ : Fin 1) ∈ (flat (N := N) wf).scatterDimsToOperandDims from List.mem_singleton.2 rfl)]
    refine congrArg (fun k => (idx k).toInt) (funext fun b => ?_)
    match b with
    | ⟨0, _⟩ => exact Fin.ext rfl
    | ⟨1, _⟩ => exact Fin.ext rfl

theorem flat_window (wf) (e : Fin E) (a : Fin 1) : (flat (N := N) wf).window (ix1 e) a = 0 := by
  match a with
  | ⟨0, _⟩ => rfl

theorem column_start_0 (wf) {w : Nat} (e : Fin E) (z : Fin 1) (idx : IVec ⟨2, ![E, 1]⟩ w) :
    (column (N := N) wf).start (ix2 e z) idx (0 : Fin 2) = (idx (ix2 e (0 : Fin 1))).toInt := by
  unfold ScatterDims.start
  rw [dif_pos (show (0 : Fin 2) ∈ (column (N := N) wf).scatterDimsToOperandDims from List.mem_singleton.2 rfl)]
  refine congrArg (fun k => (idx k).toInt) (funext fun b => ?_)
  match b with
  | ⟨0, _⟩ => exact Fin.ext rfl
  | ⟨1, _⟩ => exact Fin.ext rfl

theorem column_start_1 (wf) {w : Nat} (e : Fin E) (z : Fin 1) (idx : IVec ⟨2, ![E, 1]⟩ w) :
    (column (N := N) wf).start (ix2 e z) idx (1 : Fin 2) = 0 := by
  unfold ScatterDims.start
  rw [dif_neg (show ¬ (1 : Fin 2) ∈ (column (N := N) wf).scatterDimsToOperandDims from by
    intro h; exact Nat.one_ne_zero (congrArg Fin.val (List.mem_singleton.1 h)))]

theorem column_window_0 (wf) (e : Fin E) (z : Fin 1) : (column (N := N) wf).window (ix2 e z) (0 : Fin 2) = 0 := rfl
theorem column_window_1 (wf) (e : Fin E) (z : Fin 1) : (column (N := N) wf).window (ix2 e z) (1 : Fin 2) = z.val := rfl

/-! ## Where an update lands -/

/-- The flat scatter lands update `e` on place `n` exactly when its index word reads `n`. -/
theorem flat_lands (wf) {w : Nat} (e : Fin E) (idx : IVec ⟨2, ![E, 1]⟩ w) (n : Fin N) :
    (flat (N := N) wf).resultIdx? (ix1 e) idx = some (ix1 n) ↔ (idx (ix2 e (0 : Fin 1))).toInt = (n.val : ℤ) := by
  unfold ScatterDims.resultIdx?
  constructor
  · intro h
    split at h
    · have hv := congrArg Fin.val (congrFun (Option.some.inj h) (0 : Fin 1))
      have hv' : ((flat (N := N) wf).start (ix1 e) idx 0 + ((flat (N := N) wf).window (ix1 e) 0 : ℤ)).toNat = n.val := hv
      rename_i hc
      have h0 := (hc (0 : Fin 1)).1
      rw [flat_start, flat_window] at hv' h0
      omega
    · exact absurd h (by simp)
  · intro h
    have hc : ∀ a, 0 ≤ (flat (N := N) wf).start (ix1 e) idx a + ((flat (N := N) wf).window (ix1 e) a : ℤ) ∧
        (flat (N := N) wf).start (ix1 e) idx a + ((flat (N := N) wf).window (ix1 e) a : ℤ) < ((⟨1, ![N]⟩ : Shape).size a : ℤ) := by
      intro a
      rw [flat_start, flat_window, h]
      match a with
      | ⟨0, _⟩ =>
        have := n.isLt
        show (0 : ℤ) ≤ (n.val : ℤ) + ((0 : ℕ) : ℤ) ∧ (n.val : ℤ) + ((0 : ℕ) : ℤ) < (N : ℤ)
        omega
    rw [dif_pos hc]
    refine congrArg some (funext fun a => Fin.ext ?_)
    match a with
    | ⟨0, _⟩ =>
      show ((flat (N := N) wf).start (ix1 e) idx 0 + ((flat (N := N) wf).window (ix1 e) 0 : ℤ)).toNat = n.val
      rw [flat_start, flat_window, h]
      omega

/-- The column scatter lands update `(e, z)` on place `(n, 0)` exactly when the same index word reads `n`. -/
theorem column_lands (wf) {w : Nat} (e : Fin E) (z : Fin 1) (idx : IVec ⟨2, ![E, 1]⟩ w) (n : Fin N) :
    (column (N := N) wf).resultIdx? (ix2 e z) idx = some (ix2 n (0 : Fin 1)) ↔ (idx (ix2 e (0 : Fin 1))).toInt = (n.val : ℤ) := by
  have hz : z.val = 0 := by have := z.isLt; omega
  unfold ScatterDims.resultIdx?
  constructor
  · intro h
    split at h
    · have hv := congrArg Fin.val (congrFun (Option.some.inj h) (0 : Fin 2))
      have hv' : ((column (N := N) wf).start (ix2 e z) idx 0 + ((column (N := N) wf).window (ix2 e z) 0 : ℤ)).toNat = n.val := hv
      rename_i hc
      have h0 := (hc (0 : Fin 2)).1
      rw [column_start_0, column_window_0] at hv' h0
      omega
    · exact absurd h (by simp)
  · intro h
    have hc : ∀ a, 0 ≤ (column (N := N) wf).start (ix2 e z) idx a + ((column (N := N) wf).window (ix2 e z) a : ℤ) ∧
        (column (N := N) wf).start (ix2 e z) idx a + ((column (N := N) wf).window (ix2 e z) a : ℤ) < ((⟨2, ![N, 1]⟩ : Shape).size a : ℤ) := by
      intro a
      match a with
      | ⟨0, _⟩ =>
        show 0 ≤ (column (N := N) wf).start (ix2 e z) idx 0 + ((column (N := N) wf).window (ix2 e z) 0 : ℤ) ∧
          (column (N := N) wf).start (ix2 e z) idx 0 + ((column (N := N) wf).window (ix2 e z) 0 : ℤ) < (N : ℤ)
        rw [column_start_0, column_window_0, h]
        have := n.isLt
        omega
      | ⟨1, _⟩ =>
        show 0 ≤ (column (N := N) wf).start (ix2 e z) idx 1 + ((column (N := N) wf).window (ix2 e z) 1 : ℤ) ∧
          (column (N := N) wf).start (ix2 e z) idx 1 + ((column (N := N) wf).window (ix2 e z) 1 : ℤ) < (1 : ℤ)
        rw [column_start_1, column_window_1, hz]
        omega
    rw [dif_pos hc]
    refine congrArg some (funext fun a => Fin.ext ?_)
    match a with
    | ⟨0, _⟩ =>
      show ((column (N := N) wf).start (ix2 e z) idx 0 + ((column (N := N) wf).window (ix2 e z) 0 : ℤ)).toNat = n.val
      rw [column_start_0, column_window_0, h]
      omega
    | ⟨1, _⟩ =>
      show ((column (N := N) wf).start (ix2 e z) idx 1 + ((column (N := N) wf).window (ix2 e z) 1 : ℤ)).toNat = 0
      rw [column_start_1, column_window_1, hz]
      rfl

/-! ## The updates of the two layouts correspond one to one -/

/-- Update `e` of the flat layout is update `(e, 0)` of the column layout. -/
def updEquiv : (⟨1, ![E]⟩ : Shape).Idx ≃ (⟨2, ![E, 1]⟩ : Shape).Idx where
  toFun j := ix2 (⟨(j 0).val, (j 0).isLt⟩ : Fin E) (0 : Fin 1)
  invFun j := ix1 (⟨(j 0).val, (j 0).isLt⟩ : Fin E)
  left_inv j := by
    funext a
    match a with
    | ⟨0, _⟩ => rfl
  right_inv j := by
    funext a
    match a with
    | ⟨0, _⟩ => rfl
    | ⟨1, _⟩ =>
      refine Fin.ext ?_
      have h1 : (j 1).val < 1 := (j 1).isLt
      show 0 = (j 1).val
      omega

theorem updEquiv_ix1 (e : Fin E) : updEquiv (ix1 e) = ix2 e (0 : Fin 1) := rfl

/-! ## The law -/

/-- THE COLUMN LAYOUT AT `(n, 0)` IS THE FLAT LAYOUT AT `n`, for operands and updates that correspond: each adds to the
    same operand element the same updates, those whose index word reads `n`. -/
theorem scatterAdd_column_eq_flat (wf1) (wf2) {w : Nat} (idx : IVec ⟨2, ![E, 1]⟩ w)
    (x1 : FVec Ideal ⟨1, ![N]⟩ .f32) (x2 : FVec Ideal ⟨2, ![N, 1]⟩ .f32)
    (u1 : FVec Ideal ⟨1, ![E]⟩ .f32) (u2 : FVec Ideal ⟨2, ![E, 1]⟩ .f32)
    (hx : ∀ n : Fin N, x2 (ix2 n (0 : Fin 1)) = x1 (ix1 n))
    (hu : ∀ e : Fin E, u2 (ix2 e (0 : Fin 1)) = u1 (ix1 e)) (n : Fin N) :
    Host.scatterAdd (F := Ideal) (column (N := N) wf2) x2 idx u2 (ix2 n (0 : Fin 1))
      = Host.scatterAdd (F := Ideal) (flat (N := N) wf1) x1 idx u1 (ix1 n) := by
  show Ideal.hostScatterAdd (column (N := N) wf2) x2 idx u2 (ix2 n (0 : Fin 1))
      = Ideal.hostScatterAdd (flat (N := N) wf1) x1 idx u1 (ix1 n)
  unfold Ideal.hostScatterAdd
  rw [hx, Finset.sum_filter, Finset.sum_filter]
  refine congrArg (x1 (ix1 n) + ·) (Fintype.sum_equiv updEquiv _ _ fun j => ?_).symm
  obtain ⟨e, rfl⟩ : ∃ e : Fin E, j = ix1 e :=
    ⟨⟨(j 0).val, (j 0).isLt⟩, funext fun a => match a with | ⟨0, _⟩ => rfl⟩
  rw [updEquiv_ix1]
  exact if_congr ((flat_lands wf1 e idx n).trans (column_lands wf2 e 0 idx n).symm) (hu e).symm rfl

end Cert.Bridge.Count

end
-- ==== Proof.Glue.lean ====
/-
  The arrays the kernel's call is given are the reference's intermediate arrays.

  Before its one call the kernel's program computes, on the host, the same things the reference computes along its
  way: per relation the neighbour sums (gather the source rows, scatter-add them at the destinations) and the
  neighbour counts (scatter-add ones at the destinations), and it reshapes the three bias vectors to one-row
  matrices.  The neighbour sums are the reference's, operation for operation.  The counts differ in layout only: the
  kernel counts into a vector and reshapes it to a column, the reference counts into a column; the two agree by the
  counting law.  A one-row reshape of a bias vector reads the vector at the column.
-/
import proofs.«178428_j89137751261399_1_alg».proof.Proof.Gen.KernelIdeal.Frame
import proofs.«178428_j89137751261399_1_alg».proof.Proof.Gen.ReferenceIdeal.Read
import proofs.«178428_j89137751261399_1_alg».proof.Proof.LibScatterCount
import proofs.«178428_j89137751261399_1_alg».proof.Proof.LibLayout
import Idealize.ShloMosaic.Lib.StableHlo.Run
import Idealize.ShloMosaic.Lib.ValueIdx
import Idealize.ShloMosaic.Lib.ValueLayout

set_option maxRecDepth 16384

noncomputable section

namespace Cert.Bridge.Glue

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## The neighbour sums -/

/-- The first relation's neighbour sums, as the call finds them, are the reference's. -/
theorem agg_img (c : Dev nD) :
    (V m c (Pipeline.arrRef spec0 1) : S100000x128.Idx → EReal) = Cert.ReferenceIdeal.Read.val_main_v17 (F := Ideal) (m ((c : Thread nD τ).loc main_arg1)) (m ((c : Thread nD τ).loc main_arg3)) := by
  show (V m c main_v13 : S100000x128.Idx → EReal) = _
  dsimp only [V, hostOps0]
  unfold Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4
    Cert.ReferenceIdeal.Read.val_main_cst Cert.ReferenceIdeal.Read.val_main_c Cert.ReferenceIdeal.Read.val_main_c_0
  after_results_simp <;> rfl

/-- The second relation's neighbour sums, as the call finds them, are the reference's. -/
theorem agg_txt (c : Dev nD) :
    (V m c (Pipeline.arrRef spec0 3) : S100000x128.Idx → EReal) = Cert.ReferenceIdeal.Read.val_main_v45 (F := Ideal) (m ((c : Thread nD τ).loc main_arg2)) (m ((c : Thread nD τ).loc main_arg4)) := by
  show (V m c main_v32 : S100000x128.Idx → EReal) = _
  dsimp only [V, hostOps0]
  unfold Cert.ReferenceIdeal.Read.val_main_v45 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_v39
    Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32
    Cert.ReferenceIdeal.Read.val_main_cst_6 Cert.ReferenceIdeal.Read.val_main_c_4 Cert.ReferenceIdeal.Read.val_main_c_5
  after_results_simp <;> rfl

/-! ## The neighbour counts -/

/-- The img relation's neighbour counts, as the call finds them: the flat count over the reference's index column,
    reshaped to a column. -/
theorem cnt_img_found (c : Dev nD) :
    (V m c (Pipeline.arrRef spec0 2) : S100000x1.Idx → EReal)
      = fun i => shapeCast S100000x1 (Host.scatterAdd (F := Ideal) scatter_S100000_S800000x1_S800000_n_0_0_1
          (broadcastInDim S100000 ![] bcast_S_S100000 (constant (F := Ideal) S_ .f32 0x00000000#32))
          (Cert.ReferenceIdeal.Read.val_main_v20 (F := Ideal) (m ((c : Thread nD τ).loc main_arg3)))
          (broadcastInDim S800000 ![] bcast_S_S800000 (constant (F := Ideal) S_ .f32 0x3F800000#32))) shapeCasts_S100000_S100000x1 i := by
  show (V m c main_v18 : S100000x1.Idx → EReal) = _
  dsimp only [V, hostOps0]
  unfold Cert.ReferenceIdeal.Read.val_main_v20 Cert.ReferenceIdeal.Read.val_main_v7 Cert.ReferenceIdeal.Read.val_main_v6
  after_results_simp <;> rfl

/-- The img relation's count of row `r`, as the call finds it, is the reference's: the column of the flat count is
    the column count (the counting law), the operands all zeros and the updates all ones in both. -/
theorem cnt_img_apply (c : Dev nD) (r : Fin 100000) :
    V m c (Pipeline.arrRef spec0 2) (ix2 r (0 : Fin 1)) = Cert.ReferenceIdeal.Read.val_main_v21 (F := Ideal) (m ((c : Thread nD τ).loc main_arg3)) (ix2 r (0 : Fin 1)) := by
  refine (congrFun (cnt_img_found m c) (ix2 r (0 : Fin 1))).trans ((Cert.Bridge.Layout.shapeCast_a_a1_apply _ _ r (0 : Fin 1)).trans ?_)
  unfold Cert.ReferenceIdeal.Read.val_main_v21
  exact (Cert.Bridge.Count.scatterAdd_column_eq_flat (N := 100000) (E := 800000)
    scatter_S100000_S800000x1_S800000_n_0_0_1.wf Cert.ReferenceIdeal.scatter_S100000x1_S800000x1_S800000x1_1_0_0_1.wf
    (Cert.ReferenceIdeal.Read.val_main_v20 (F := Ideal) (m ((c : Thread nD τ).loc main_arg3)))
    (broadcastInDim S100000 ![] bcast_S_S100000 (constant (F := Ideal) S_ .f32 0x00000000#32)) (Cert.ReferenceIdeal.Read.val_main_v19 (F := Ideal))
    (broadcastInDim S800000 ![] bcast_S_S800000 (constant (F := Ideal) S_ .f32 0x3F800000#32)) (Cert.ReferenceIdeal.Read.val_main_v18 (F := Ideal))
    (fun _ => rfl) (fun _ => rfl) r).symm

/-- The txt relation's neighbour counts, as the call finds them: the flat count over the reference's index column,
    reshaped to a column. -/
theorem cnt_txt_found (c : Dev nD) :
    (V m c (Pipeline.arrRef spec0 4) : S100000x1.Idx → EReal)
      = fun i => shapeCast S100000x1 (Host.scatterAdd (F := Ideal) scatter_S100000_S800000x1_S800000_n_0_0_1
          (broadcastInDim S100000 ![] bcast_S_S100000 (constant (F := Ideal) S_ .f32 0x00000000#32))
          (Cert.ReferenceIdeal.Read.val_main_v48 (F := Ideal) (m ((c : Thread nD τ).loc main_arg4)))
          (broadcastInDim S800000 ![] bcast_S_S800000 (constant (F := Ideal) S_ .f32 0x3F800000#32))) shapeCasts_S100000_S100000x1 i := by
  show (V m c main_v37 : S100000x1.Idx → EReal) = _
  dsimp only [V, hostOps0]
  unfold Cert.ReferenceIdeal.Read.val_main_v48 Cert.ReferenceIdeal.Read.val_main_v35 Cert.ReferenceIdeal.Read.val_main_v34
  after_results_simp <;> rfl

/-- The txt relation's count of row `r`, as the call finds it, is the reference's: the column of the flat count is
    the column count (the counting law), the operands all zeros and the updates all ones in both. -/
theorem cnt_txt_apply (c : Dev nD) (r : Fin 100000) :
    V m c (Pipeline.arrRef spec0 4) (ix2 r (0 : Fin 1)) = Cert.ReferenceIdeal.Read.val_main_v49 (F := Ideal) (m ((c : Thread nD τ).loc main_arg4)) (ix2 r (0 : Fin 1)) := by
  refine (congrFun (cnt_txt_found m c) (ix2 r (0 : Fin 1))).trans ((Cert.Bridge.Layout.shapeCast_a_a1_apply _ _ r (0 : Fin 1)).trans ?_)
  unfold Cert.ReferenceIdeal.Read.val_main_v49
  exact (Cert.Bridge.Count.scatterAdd_column_eq_flat (N := 100000) (E := 800000)
    scatter_S100000_S800000x1_S800000_n_0_0_1.wf Cert.ReferenceIdeal.scatter_S100000x1_S800000x1_S800000x1_1_0_0_1.wf
    (Cert.ReferenceIdeal.Read.val_main_v48 (F := Ideal) (m ((c : Thread nD τ).loc main_arg4)))
    (broadcastInDim S100000 ![] bcast_S_S100000 (constant (F := Ideal) S_ .f32 0x00000000#32)) (Cert.ReferenceIdeal.Read.val_main_v47 (F := Ideal))
    (broadcastInDim S800000 ![] bcast_S_S800000 (constant (F := Ideal) S_ .f32 0x3F800000#32)) (Cert.ReferenceIdeal.Read.val_main_v46 (F := Ideal))
    (fun _ => rfl) (fun _ => rfl) r).symm

/-! ## The biases -/

/-- The user bias, as the call finds it, is the bias vector reshaped to one row. -/
theorem bias_user_found (c : Dev nD) :
    (V m c (Pipeline.arrRef spec0 6) : S1x128.Idx → EReal) = shapeCast S1x128 (m ((c : Thread nD τ).loc main_arg6)) shapeCasts_S128_S1x128 := by
  show (V m c main_v38 : S1x128.Idx → EReal) = _
  dsimp only [V, hostOps0]
  after_results_simp <;> rfl

/-- So its one row at column `k` is the bias vector at `k`. -/
theorem bias_user_apply (c : Dev nD) (k : Fin 128) :
    V m c (Pipeline.arrRef spec0 6) (ix2 (0 : Fin 1) k) = (m ((c : Thread nD τ).loc main_arg6)) (ix1 k) :=
  (congrFun (bias_user_found m c) (ix2 (0 : Fin 1) k)).trans (shapeCast_a_1a_apply _ _ (0 : Fin 1) k)

/-- The img bias, as the call finds it, is the bias vector reshaped to one row. -/
theorem bias_img_found (c : Dev nD) :
    (V m c (Pipeline.arrRef spec0 8) : S1x128.Idx → EReal) = shapeCast S1x128 (m ((c : Thread nD τ).loc main_arg8)) shapeCasts_S128_S1x128 := by
  show (V m c main_v39 : S1x128.Idx → EReal) = _
  dsimp only [V, hostOps0]
  after_results_simp <;> rfl

/-- So its one row at column `k` is the bias vector at `k`. -/
theorem bias_img_apply (c : Dev nD) (k : Fin 128) :
    V m c (Pipeline.arrRef spec0 8) (ix2 (0 : Fin 1) k) = (m ((c : Thread nD τ).loc main_arg8)) (ix1 k) :=
  (congrFun (bias_img_found m c) (ix2 (0 : Fin 1) k)).trans (shapeCast_a_1a_apply _ _ (0 : Fin 1) k)

/-- The txt bias, as the call finds it, is the bias vector reshaped to one row. -/
theorem bias_txt_found (c : Dev nD) :
    (V m c (Pipeline.arrRef spec0 11) : S1x128.Idx → EReal) = shapeCast S1x128 (m ((c : Thread nD τ).loc main_arg11)) shapeCasts_S128_S1x128 := by
  show (V m c main_v40 : S1x128.Idx → EReal) = _
  dsimp only [V, hostOps0]
  after_results_simp <;> rfl

/-- So its one row at column `k` is the bias vector at `k`. -/
theorem bias_txt_apply (c : Dev nD) (k : Fin 128) :
    V m c (Pipeline.arrRef spec0 11) (ix2 (0 : Fin 1) k) = (m ((c : Thread nD τ).loc main_arg11)) (ix1 k) :=
  (congrFun (bias_txt_found m c) (ix2 (0 : Fin 1) k)).trans (shapeCast_a_1a_apply _ _ (0 : Fin 1) k)

/-! ## The operands no host operation writes: the call finds them as launched -/

theorem arg0_found (c : Dev nD) : V m c (Pipeline.arrRef spec0 0) = (m ((c : Thread nD τ).loc main_arg0)) := V_main_arg0 m c
theorem arg5_found (c : Dev nD) : V m c (Pipeline.arrRef spec0 5) = (m ((c : Thread nD τ).loc main_arg5)) := V_main_arg5 m c
theorem arg7_found (c : Dev nD) : V m c (Pipeline.arrRef spec0 7) = (m ((c : Thread nD τ).loc main_arg7)) := V_main_arg7 m c
theorem arg9_found (c : Dev nD) : V m c (Pipeline.arrRef spec0 9) = (m ((c : Thread nD τ).loc main_arg9)) := V_main_arg9 m c
theorem arg10_found (c : Dev nD) : V m c (Pipeline.arrRef spec0 10) = (m ((c : Thread nD τ).loc main_arg10)) := V_main_arg10 m c
theorem arg12_found (c : Dev nD) : V m c (Pipeline.arrRef spec0 12) = (m ((c : Thread nD τ).loc main_arg12)) := V_main_arg12 m c

end Cert.Bridge.Glue

end
-- ==== Proof.Equal.lean ====
/-
  The reference's result is the array the kernel's run leaves.

  Both are, at every `(r, q)`, the per-row result of row `r`: the reference's result by reading its operations at an
  index, the kernel's array by what each grid point writes back.  The rows they are given are the same rows: the
  arguments as launched, the neighbour sums and counts the two programs compute alike, and the bias vectors.
-/
import proofs.«178428_j89137751261399_1_alg».proof.Proof.KernelArray
import proofs.«178428_j89137751261399_1_alg».proof.Proof.RefRow
import proofs.«178428_j89137751261399_1_alg».proof.Proof.Glue

noncomputable section

namespace Cert.Bridge.Equal

open Cert.KernelIdeal Cert.KernelIdeal.Gen Idealize.ShloMosaic Idealize.ShloMosaic.TcCoe Idealize.SL.Sem
open Idealize.ShloMosaic.ValueIdx
open Cert.Bridge.Spec Cert.Bridge.KernelArray

variable (m : (ℓ : Loc nD τ sig) → Buf (Elt Ideal) ℓ)

/-- The whole result function at `(r, q)` is the per-row result of row `r` of its arrays, at column `q`. -/
theorem wholeOut_apply (a0 : S100000x256.Idx → EReal) (a1 : S100000x128.Idx → EReal) (a2 : S100000x1.Idx → EReal)
    (a3 : S100000x128.Idx → EReal) (a4 : S100000x1.Idx → EReal) (a5 : S256x128.Idx → EReal) (a6 : S1x128.Idx → EReal)
    (a7 : S128x128.Idx → EReal) (a8 : S1x128.Idx → EReal) (a9 a10 : S128x128.Idx → EReal) (a11 : S1x128.Idx → EReal)
    (a12 : S128x128.Idx → EReal) (r : Fin 100000) (q : Fin 128) :
    wholeOut a0 a1 a2 a3 a4 a5 a6 a7 a8 a9 a10 a11 a12 (ix2 r q)
      = rowOut (fun l => a0 (ix2 r l)) (fun k => a1 (ix2 r k)) (a2 (ix2 r (0 : Fin 1))) (fun k => a3 (ix2 r k)) (a4 (ix2 r (0 : Fin 1)))
          (fun l k => a5 (ix2 l k)) (fun k => a6 (ix2 (0 : Fin 1) k))
          (fun k q => a7 (ix2 k q)) (fun k => a8 (ix2 (0 : Fin 1) k)) (fun k q => a9 (ix2 k q))
          (fun k q => a10 (ix2 k q)) (fun k => a11 (ix2 (0 : Fin 1) k)) (fun k q => a12 (ix2 k q)) q := rfl

/-- THE REFERENCE'S RESULT, of the kernel's arguments, IS THE ARRAY THE KERNEL'S RUN LEAVES. -/
theorem reference_eq_found (c : Dev nD) :
    (Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : S100000x128.Idx → EReal) = found m c := by
  funext i
  obtain ⟨r, q, rfl⟩ : ∃ (r : Fin 100000) (q : Fin 128), i = ix2 r q := ⟨i 0, i 1, eq_ix2 i⟩
  rw [Cert.Bridge.RefRow.result_apply]
  unfold found
  rw [wholeOut_apply]
  exact rowOut_congr
    (funext fun l => (congrFun (Cert.Bridge.Glue.arg0_found m c) (ix2 r l)).symm)
    (funext fun k => (congrFun (Cert.Bridge.Glue.agg_img m c) (ix2 r k)).symm)
    (Cert.Bridge.Glue.cnt_img_apply m c r).symm
    (funext fun k => (congrFun (Cert.Bridge.Glue.agg_txt m c) (ix2 r k)).symm)
    (Cert.Bridge.Glue.cnt_txt_apply m c r).symm
    (funext fun l => funext fun k => (congrFun (Cert.Bridge.Glue.arg5_found m c) (ix2 l k)).symm)
    (funext fun k => (Cert.Bridge.Glue.bias_user_apply m c k).symm)
    (funext fun k => funext fun k' => (congrFun (Cert.Bridge.Glue.arg7_found m c) (ix2 k k')).symm)
    (funext fun k => (Cert.Bridge.Glue.bias_img_apply m c k).symm)
    (funext fun k => funext fun k' => (congrFun (Cert.Bridge.Glue.arg9_found m c) (ix2 k k')).symm)
    (funext fun k => funext fun k' => (congrFun (Cert.Bridge.Glue.arg10_found m c) (ix2 k k')).symm)
    (funext fun k => (Cert.Bridge.Glue.bias_txt_apply m c k).symm)
    (funext fun k => funext fun k' => (congrFun (Cert.Bridge.Glue.arg12_found m c) (ix2 k k')).symm)
    rfl

end Cert.Bridge.Equal

end
-- ==== Proof.lean ====
/-
  A two-relation graph layer on 100000 user nodes: a fused, row-tiled kernel against its whole-array reference, equal
  on the extended reals.

  Both programs compute, for every user node `r`,

      relu( (mean_img(r) · Wl_img + bl_img + u(r) · Wr_img) + (mean_txt(r) · Wl_txt + bl_txt + u(r) · Wr_txt) ),

  where `u(r) = x_user(r) · W_user + b_user` and, per relation, `mean(r) = agg(r) / max(cnt(r), 1)` with `agg` the sum of
  the source rows over the edges into `r` and `cnt` their number.  Both compute `agg` and `cnt` on the host by the same
  gather and scatter-add; the kernel then does all the dense work in one call tiled over blocks of 2000 rows, with
  narrower matrix-product inputs, where the reference uses whole-array operations.  On the extended reals a change of
  float format is the identity and a matrix product is its exact sum, and the two programs add their terms in the
  same grouping, so the two results are one function of the arguments:

    * Spec: that function for one row.
    * KernelRow, KernelArray: the kernel's stored block, row by row, is it; the 50 blocks tile the result array.
    * RefRow: the reference's result, read at an index, is it.
    * LibScatterCount, Glue: the arrays the kernel's call is given are the reference's intermediate arrays — the neighbour
      counts up to layout (a vector reshaped to a column against a column), by the counting law.
    * Equal: so the reference's result is the array the kernel's run leaves.

  The three programs each run to completion without fault and leave their arguments as they were: the two kernels'
  frames are the generated ones, the reference's is its generated run with the result dropped.  The idealized kernel
  is the printed kernel's text read on the extended reals: no rewrite was applied, so nothing is owed for it.
  No step uses that the inputs are finite.
-/
import proofs.«178428_j89137751261399_1_alg».proof.Defs
import proofs.«178428_j89137751261399_1_alg».proof.Proof.Gen.Kernel
import proofs.«178428_j89137751261399_1_alg».proof.Proof.Gen.Kernel.Skeleton
import proofs.«178428_j89137751261399_1_alg».proof.Proof.Gen.Kernel.Launch
import proofs.«178428_j89137751261399_1_alg».proof.Proof.Gen.Kernel.Points
import proofs.«178428_j89137751261399_1_alg».proof.Proof.Gen.Kernel.Frame
import proofs.«178428_j89137751261399_1_alg».proof.Proof.Gen.KernelIdeal
import proofs.«178428_j89137751261399_1_alg».proof.Proof.Gen.KernelIdeal.Skeleton
import proofs.«178428_j89137751261399_1_alg».proof.Proof.Gen.KernelIdeal.Launch
import proofs.«178428_j89137751261399_1_alg».proof.Proof.Gen.KernelIdeal.Points
import proofs.«178428_j89137751261399_1_alg».proof.Proof.Gen.KernelIdeal.Frame
import proofs.«178428_j89137751261399_1_alg».proof.Proof.Gen.ReferenceIdeal
import proofs.«178428_j89137751261399_1_alg».proof.Proof.Gen.Pre_finite_inputs
import proofs.«178428_j89137751261399_1_alg».proof.Proof.Gen.KernelIdeal.Value
import proofs.«178428_j89137751261399_1_alg».proof.Proof.Gen.ReferenceIdeal.Run
import proofs.«178428_j89137751261399_1_alg».proof.Proof.Gen.ReferenceIdeal.Read
import proofs.«178428_j89137751261399_1_alg».proof.Proof.Equal
import Idealize.ShloMosaic.Adequacy
import Idealize.ShloMosaic.Init

noncomputable section

namespace Cert.Proof

open Idealize.ShloMosaic Idealize.SL.Sem

/-- The printed kernel runs to completion without fault and leaves its arguments unchanged (the generated frame). -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its generated run, the statement about its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories agreeing on the arguments, both idealized programs run and end with the same result array: the
    kernel's run leaves the whole result function of the arrays its call finds (`KernelArray.final`), and the
    reference's result, of the same arguments, is that array (`Equal.reference_eq_found`). -/
theorem algebraic : Cert.algebraic_KernelIdeal_ReferenceIdeal := by
  intro m ρ m' ρ' _ hagree
  refine ⟨fun c => Cert.Bridge.KernelArray.found m c, ?_, ?_⟩
  · exact (θ_run Cert.KernelIdeal.defs _ _).mono
      (fun r h c => ⟨(h c).1.trans (Cert.Bridge.KernelArray.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v61_eq, h0, h1, h2, h3, h4, h5, h6, h7, h8, h9, h10, h11, h12]
    exact Cert.Bridge.Equal.reference_eq_found m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
